-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : IVec S8x2048 32) (main_arg2 : IVec S8x2048 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S8x2048x1024 : Shape := ⟨3, ![8, 2048, 1024]⟩
abbrev S8x2048 : Shape := ⟨2, ![8, 2048]⟩
abbrev S8x2048x1 : Shape := ⟨3, ![8, 2048, 1]⟩
abbrev S8x1x2048 : Shape := ⟨3, ![8, 1, 2048]⟩
abbrev S1x256x1 : Shape := ⟨3, ![1, 256, 1]⟩
abbrev S1x1x2048 : Shape := ⟨3, ![1, 1, 2048]⟩
abbrev S1x2048x1024 : Shape := ⟨3, ![1, 2048, 1024]⟩
abbrev S1x256x1024 : Shape := ⟨3, ![1, 256, 1024]⟩
abbrev S1x256x2048 : Shape := ⟨3, ![1, 256, 2048]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S8x2048, .i32⟩
  | .hbm, ⟨3, _⟩ => ⟨S8x2048x1, .i32⟩
  | .hbm, ⟨4, _⟩ => ⟨S8x2048x1, .i32⟩
  | .hbm, ⟨5, _⟩ => ⟨S8x1x2048, .i32⟩
  | .hbm, ⟨6, _⟩ => ⟨S8x1x2048, .i32⟩
  | .hbm, ⟨7, _⟩ => ⟨S8x2048x1024, .f32⟩
  | .local _ .vmem, ⟨0, _⟩ => ⟨S1x256x1, .i32⟩
  | .local _ .vmem, ⟨1, _⟩ => ⟨S1x256x1, .i32⟩
  | .local _ .vmem, ⟨2, _⟩ => ⟨S1x256x1, .i32⟩
  | .local _ .vmem, ⟨3, _⟩ => ⟨S1x256x1, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x2048x1024, .f32⟩
  | .local _ .vmem, ⟨9, _⟩ => ⟨S1x2048x1024, .f32⟩
  | .local _ .vmem, ⟨10, _⟩ => ⟨S1x256x1024, .f32⟩
  | .local _ .vmem, ⟨11, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  broadcasts_S1x256x1_S1x256x2048 : S1x256x1.Broadcasts S1x256x2048
  broadcasts_S1x1x2048_S1x256x2048 : S1x1x2048.Broadcasts S1x256x2048
  reduces_S1x256x2048_S1x256 : S1x256x2048.Reduces [2] S1x256
  shapeCasts_S1x256_S1x256x1 : S1x256.ShapeCasts S1x256x1
  inb_S1x2048x1024_S1x2048x1024_0_0_0 : ∀ a, (![0, 0, 0] : Fin 3 → Nat) a + S1x2048x1024.size a ≤ S1x2048x1024.size a
  h_S1x2048x1024 : 0 < S1x2048x1024.numel
  broadcasts_S1x256x1_S1x256x1024 : S1x256x1.Broadcasts S1x256x1024
  inb_S1x256x1024_S1x256x1024_0_0_0 : ∀ a, (![0, 0, 0] : Fin 3 → Nat) a + S1x256x1024.size a ≤ S1x256x1024.size a
  h_S1x256x1024 : 0 < S1x256x1024.numel
  dot_S1x256x2048_S1x2048x1024_S1x256x1024_2_1_1_2_0_0_wf : DotDims.WF S1x256x2048 S1x2048x1024 S1x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1.size a ≤ S8x2048x1.size a
  hwx0_0 : ∀ i : grid0.Coords, EltTy.bits .i32 = 32 ∨ (Rect.block (s := S8x2048x1) S1x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S8x2048x1.size a
  hwx0_1 : ∀ i : grid0.Coords, EltTy.bits .i32 = 32 ∨ (Rect.block (s := S8x2048x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .i32 = 32 ∨ (Rect.block (s := S8x1x2048) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .i32 = 32 ∨ (Rect.block (s := S8x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .f32 = 32 ∨ (Rect.block (s := S8x2048x1024) S1x2048x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x1024.size a
  hwx0_5 : ∀ i : grid0.Coords, EltTy.bits .f32 = 32 ∨ (Rect.block (s := S8x2048x1024) S1x256x1024.size (cc0_transform_5 i) (hinb0_5 i)).WholeWords (EltTy.packing .f32)

variable [Facts₀]

def dot_S1x256x2048_S1x2048x1024_S1x256x1024_2_1_1_2_0_0 : DotDims S1x256x2048 S1x2048x1024 S1x256x1024 where
  lhsContracting := [2]
  rhsContracting := [1]
  lhsNonContracting := [1]
  rhsNonContracting := [2]
  lhsBatch := [0]
  rhsBatch := [0]
  wf := dot_S1x256x2048_S1x2048x1024_S1x256x1024_2_1_1_2_0_0_wf

abbrev win0_0 : Pipeline.Window sig grid0 :=
  Pipeline.Window.ofSpec (Memref.whole main_v0) S1x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x2048x1 : Shape := ⟨3, ![8, 2048, 1]⟩
abbrev S8x2048x2 : Shape := ⟨3, ![8, 2048, 2]⟩
abbrev S8x2048x1x2 : Shape := ⟨4, ![8, 2048, 1, 2]⟩
abbrev S8x1x2048x2 : Shape := ⟨4, ![8, 1, 2048, 2]⟩
abbrev S8x2048x2048x2 : Shape := ⟨4, ![8, 2048, 2048, 2]⟩
abbrev S_ : Shape := ⟨0, ![]⟩
abbrev S8x2048x2048 : Shape := ⟨3, ![8, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S8x2048, .i32⟩
  | .hbm, ⟨3, _⟩ => ⟨S8x2048x1, .i32⟩
  | .hbm, ⟨4, _⟩ => ⟨S8x2048x1, .i32⟩
  | .hbm, ⟨5, _⟩ => ⟨S8x2048x2, .i32⟩
  | .hbm, ⟨6, _⟩ => ⟨S8x2048x2, .f32⟩
  | .hbm, ⟨7, _⟩ => ⟨S8x2048x1x2, .f32⟩
  | .hbm, ⟨8, _⟩ => ⟨S8x1x2048x2, .f32⟩
  | .hbm, ⟨9, _⟩ => ⟨S8x2048x2048x2, .f32⟩
  | .hbm, ⟨10, _⟩ => ⟨S8x2048x2048x2, .f32⟩
  | .hbm, ⟨11, _⟩ => ⟨S8x2048x2048x2, .f32⟩
  | .hbm, ⟨12, _⟩ => ⟨S8x2048x2048x2, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  concatenates_S8x2048x1_S8x2048x1_S8x2048x2_d2 : Shape.Concatenates [S8x2048x1, S8x2048x1] S8x2048x2 2
  bcast_S8x2048x2_S8x2048x1x2_0_1_3 : S8x2048x2.BroadcastsInDim S8x2048x1x2 (![0, 1, 3] : Fin 3 → Fin S8x2048x1x2.rank)
  bcast_S8x2048x2_S8x1x2048x2_0_2_3 : S8x2048x2.BroadcastsInDim S8x1x2048x2 (![0, 2, 3] : Fin 3 → Fin S8x1x2048x2.rank)
  bcast_S8x2048x1x2_S8x2048x2048x2_0_1_2_3 : S8x2048x1x2.BroadcastsInDim S8x2048x2048x2 (![0, 1, 2, 3] : Fin 4 → Fin S8x2048x2048x2.rank)
  bcast_S8x1x2048x2_S8x2048x2048x2_0_1_2_3 : S8x1x2048x2.BroadcastsInDim S8x2048x2048x2 (![0, 1, 2, 3] : Fin 4 → Fin S8x2048x2048x2.rank)
  reducesTo_S8x2048x2048x2_S8x2048x2048_d3 : S8x2048x2048x2.ReducesTo [3] S8x2048x2048
  h_S_ : 0 < S_.numel
  bcast_S_S8x2048x2048 : S_.BroadcastsInDim S8x2048x2048 (![] : Fin 0 → Fin S8x2048x2048.rank)
  reducesTo_S8x2048x2048_S8x2048_d2 : S8x2048x2048.ReducesTo [2] S8x2048
  bcast_S8x2048x1_S8x2048x2048_0_1_2 : S8x2048x1.BroadcastsInDim S8x2048x2048 (![0, 1, 2] : Fin 3 → Fin S8x2048x2048.rank)
  dot_S8x2048x2048_S8x2048x1024_S8x2048x1024_2_1_1_2_0_0_wf : DotDims.WF S8x2048x2048 S8x2048x1024 S8x2048x1024 [2] [1] [1] [2] [0] [0]

variable [Facts₀]

def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Mixture.lean ====
/-
  A kernel-weighted mean, on the extended reals.

  Tokens carry two integer positions. The weight of token `s` for token `t` (in one batch) is the Gaussian
  `exp (-(d² / 512))` of their squared distance `d² = Δv·Δv + Δh·Δh`; it is a positive real. The mixture of the rows
  `x s` under these weights, normalised by the weights' sum, can be written two ways:

    (Σ_s w s · x s) / (Σ_s w s)        — sum first, divide once;
    Σ_s (w s / Σ_s' w s') · x s        — normalise each weight, then sum.

  Over the reals these agree because the divisor is one nonzero number that can be moved across the finite sum.
  On the extended reals that step needs every `x s` to be a real (an infinite entry would break distributivity), and
  needs the divisor to be a nonzero real, which it is: a nonempty sum of positive reals. This module states the
  weights, the mixture `mix` (in the first form), and the law that the second form equals it for real-valued rows.
-/
import Idealize.ShloMosaic.PureOps.Ideal
import Idealize.ShloMosaic.Lib.ValueIdx

noncomputable section

namespace Cert.Mixture

open Idealize.ShloMosaic Idealize.ShloMosaic.ValueIdx

/-! ## The two float words of the exponent's scale -/

/-- The word `0xBB000000` is `-2⁻⁹ = -(1/512)`. -/
theorem ofBits_neg_inv512 : Ideal.ofBits .f32 0xBB000000#32 = ((-(1 / 512) : ℝ) : EReal) := by
  simp [Ideal.ofBits, Ideal.ieee, -EReal.coe_mul, -EReal.coe_neg]; norm_num

/-- The word `0x44000000` is `2⁹ = 512`. -/
theorem ofBits_512 : Ideal.ofBits .f32 0x44000000#32 = ((512 : ℝ) : EReal) := by
  simp [Ideal.ofBits, Ideal.ieee, -EReal.coe_mul]; norm_num

/-! ## Finite sums of reals inside the extended reals -/

/-- The coercion of reals into the extended reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The weights -/

/-- The squared distance of two tokens from their position differences. -/
def dist2 (av ah bv bh : ℤ) : ℝ := ((av : ℝ) - (bv : ℝ)) * ((av : ℝ) - (bv : ℝ)) + ((ah : ℝ) - (bh : ℝ)) * ((ah : ℝ) - (bh : ℝ))

/-- The Gaussian weight of a pair of tokens: `exp (-(d² / 512))`, a positive real. -/
def gauss (av ah bv bh : ℤ) : ℝ := Real.exp (dist2 av ah bv bh * (-(1 / 512)))

theorem gauss_pos (av ah bv bh : ℤ) : 0 < gauss av ah bv bh := Real.exp_pos _

/-- The kernel's spelling of a weight — the squared distance times the word `-(1/512)`, exponentiated — is the weight. -/
theorem exp_mul_word (av ah bv bh : ℤ) :
    Ideal.exp (((((av : ℝ) : EReal) - ((bv : ℝ) : EReal)) * (((av : ℝ) : EReal) - ((bv : ℝ) : EReal))
        + (((ah : ℝ) : EReal) - ((bh : ℝ) : EReal)) * (((ah : ℝ) : EReal) - ((bh : ℝ) : EReal)))
      * Ideal.ofBits .f32 0xBB000000#32) = ((gauss av ah bv bh : ℝ) : EReal) := by
  rw [ofBits_neg_inv512, ← EReal.coe_sub, ← EReal.coe_sub, ← EReal.coe_mul, ← EReal.coe_mul, ← EReal.coe_add, ← EReal.coe_mul,
    Ideal.exp_coe]
  rfl

/-- The reference's spelling — zero plus the two squares, negated, divided by the word `512`, exponentiated — is the
    same weight. -/
theorem exp_neg_div_word (av ah bv bh : ℤ) :
    Ideal.exp (Ideal.div (-(Ideal.ofBits .f32 0x00000000#32
        + ((((av : ℝ) : EReal) - ((bv : ℝ) : EReal)) * (((av : ℝ) : EReal) - ((bv : ℝ) : EReal))
          + (((ah : ℝ) : EReal) - ((bh : ℝ) : EReal)) * (((ah : ℝ) : EReal) - ((bh : ℝ) : EReal)))))
      (Ideal.ofBits .f32 0x44000000#32)) = ((gauss av ah bv bh : ℝ) : EReal) := by
  have hz : Ideal.ofBits .f32 0x00000000#32 = ((0 : ℝ) : EReal) := by simp [Ideal.ofBits, Ideal.ieee]
  rw [ofBits_512, hz, Ideal.div_coe (by norm_num : (512 : ℝ) ≠ 0), ← EReal.coe_sub, ← EReal.coe_sub, ← EReal.coe_mul,
    ← EReal.coe_mul, ← EReal.coe_add, ← EReal.coe_add, ← EReal.coe_neg, ← EReal.coe_mul, Ideal.exp_coe]
  unfold gauss dist2
  congr 2
  ring

/-! ## The law -/

/-- Normalising each positive weight and then summing against real-valued rows is summing first and dividing once:
    the divisor is one positive real, so its reciprocal moves across the finite sum. The divisor appears as the
    reference computes it, a zero word plus the sum. -/
theorem normalise_then_sum {n : Nat} (w : Fin n → ℝ) (hw : 0 < ∑ k, w k) (x : Fin n → EReal)
    (hx : ∀ k, x k ≠ ⊤ ∧ x k ≠ ⊥) :
    ∑ k, Ideal.div ((w k : ℝ) : EReal) (Ideal.ofBits .f32 0x00000000#32 + ∑ k', ((w k' : ℝ) : EReal)) * x k
      = Ideal.div (∑ k, ((w k : ℝ) : EReal) * x k) (∑ k', ((w k' : ℝ) : EReal)) := by
  have hz : Ideal.ofBits .f32 0x00000000#32 = 0 := by simp [Ideal.ofBits, Ideal.ieee]
  have hL : (∑ k, w k) ≠ 0 := ne_of_gt hw
  have hr : ∀ k, x k = (((x k).toReal : ℝ) : EReal) := fun k => (EReal.coe_toReal (hx k).1 (hx k).2).symm
  rw [hz, zero_add, ← coe_sum, Ideal.div_coe hL]
  have e1 : ∀ k, Ideal.div ((w k : ℝ) : EReal) ((∑ k', w k' : ℝ) : EReal) * x k
      = ((w k * (1 / ∑ k', w k') * (x k).toReal : ℝ) : EReal) := fun k => by
    rw [Ideal.div_coe hL, hr k, ← EReal.coe_mul, ← EReal.coe_mul, ← hr k]
  have e2 : ∀ k, ((w k : ℝ) : EReal) * x k = ((w k * (x k).toReal : ℝ) : EReal) := fun k => by
    rw [hr k, ← EReal.coe_mul, ← hr k]
  rw [Finset.sum_congr rfl (fun k _ => e1 k), Finset.sum_congr rfl (fun k _ => e2 k), ← coe_sum, ← coe_sum, ← EReal.coe_mul]
  congr 1
  rw [Finset.sum_mul]
  exact Finset.sum_congr rfl fun k _ => by ring

/-! ## The mixture, as one function of the argument arrays -/

/-- The weight of token `s` for token `t` in batch `b`, from the two integer position arrays (read signed). -/
def wt (pv ph : IVec ⟨2, ![8, 2048]⟩ 32) (b : Fin 8) (t s : Fin 2048) : ℝ :=
  gauss (pv (ix2 b t)).toInt (ph (ix2 b t)).toInt (pv (ix2 b s)).toInt (ph (ix2 b s)).toInt

theorem wt_sum_pos (pv ph : IVec ⟨2, ![8, 2048]⟩ 32) (b : Fin 8) (t : Fin 2048) : 0 < ∑ s : Fin 2048, wt pv ph b t s :=
  Finset.sum_pos (fun s _ => gauss_pos _ _ _ _) ⟨⟨0, by decide⟩, Finset.mem_univ _⟩

/-- Entry `(b, t, d)` of the result: the weighted sum of column `d` of batch `b`'s rows, divided by the weights' sum. -/
def mixAt (x : FVec Ideal ⟨3, ![8, 2048, 1024]⟩ .f32) (pv ph : IVec ⟨2, ![8, 2048]⟩ 32) (b : Fin 8) (t : Fin 2048) (d : Fin 1024) : EReal :=
  Ideal.div (∑ s : Fin 2048, ((wt pv ph b t s : ℝ) : EReal) * x (ix3 b s d)) (∑ s : Fin 2048, ((wt pv ph b t s : ℝ) : EReal))

/-- The whole result array. -/
def mix (x : FVec Ideal ⟨3, ![8, 2048, 1024]⟩ .f32) (pv ph : IVec ⟨2, ![8, 2048]⟩ 32) : FVec Ideal ⟨3, ![8, 2048, 1024]⟩ .f32 :=
  fun i => mixAt x pv ph (i 0) (i 1) (i 2)

theorem mix_ix3 (x : FVec Ideal ⟨3, ![8, 2048, 1024]⟩ .f32) (pv ph : IVec ⟨2, ![8, 2048]⟩ 32) (b : Fin 8) (t : Fin 2048) (d : Fin 1024) :
    mix x pv ph (ix3 b t d) = mixAt x pv ph b t d := rfl

end Cert.Mixture

end
-- ==== Proof.RefMix.lean ====
/-
  The reference computes the mixture.

  The reference stacks the two position arrays on a last axis of extent two, converts to float, forms all pairwise
  differences `pos[b, t, c] - pos[b, s, c]`, squares them and sums over `c` (from a zero), negates, divides by 512 and
  exponentiates: entry `(b, t, s)` of that array is the Gaussian weight of the pair. It then divides every weight by
  its row's sum (from a zero) and contracts the normalised weights against `x` over `s`. Read index by index this is
  "normalise each weight, then sum", which the law of the mixture turns into "sum, then divide once" when `x` holds
  reals.
-/
import proofs.«181095_j56977036148956_2_alg».proof.Proof.Gen.ReferenceIdeal.Read
import proofs.«181095_j56977036148956_2_alg».proof.Proof.Mixture

noncomputable section

namespace Cert.RefMix

open Cert.ReferenceIdeal Cert.ReferenceIdeal.Gen Cert.ReferenceIdeal.Read Idealize.ShloMosaic Idealize.ShloMosaic.ValueIdx Cert.Mixture

variable (x1 x2 : (⟨S8x2048, .i32⟩ : BufTy).Contents (Elt Ideal))

/-! ## The stacked positions -/

/-- Channel 0 of the stacked array is the first position array. -/
theorem stack_ch0 (b : Fin 8) (t : Fin 2048) : val_main_v2 (F := Ideal) x1 x2 (ix3 b t (0 : Fin 2)) = x1 (ix2 b t) := by
  unfold val_main_v2
  refine (concatenate_pair_apply_left (t := S8x2048x2) (s₁ := S8x2048x1) (s₂ := S8x2048x1) (2 : Fin 3) _ _ concatenates_S8x2048x1_S8x2048x1_S8x2048x2_d2 (ix3 b t (0 : Fin 2)) rfl
    (ix3 b t (0 : Fin 1)) (fun a => ?_)).trans ?_
  · match a with
    | ⟨0, _⟩ => rfl
    | ⟨1, _⟩ => rfl
    | ⟨2, _⟩ => rfl
  · rw [val_main_v0_apply]
    exact congrArg x1 (funext fun a => Fin.ext (by match a with | ⟨0, _⟩ => rfl | ⟨1, _⟩ => rfl))

/-- Channel 1 of the stacked array is the second position array. -/
theorem stack_ch1 (b : Fin 8) (t : Fin 2048) : val_main_v2 (F := Ideal) x1 x2 (ix3 b t (1 : Fin 2)) = x2 (ix2 b t) := by
  unfold val_main_v2
  refine (concatenate_pair_apply_right (t := S8x2048x2) (s₁ := S8x2048x1) (s₂ := S8x2048x1) (2 : Fin 3) _ _ concatenates_S8x2048x1_S8x2048x1_S8x2048x2_d2 (ix3 b t (1 : Fin 2)) rfl rfl
    (ix3 b t (0 : Fin 1)) (fun a ha => ?_) rfl).trans ?_
  · match a with
    | ⟨0, _⟩ => rfl
    | ⟨1, _⟩ => rfl
    | ⟨2, _⟩ => exact absurd rfl ha
  · rw [val_main_v1_apply]
    exact congrArg x2 (funext fun a => Fin.ext (by match a with | ⟨0, _⟩ => rfl | ⟨1, _⟩ => rfl))

/-! ## One pairwise difference -/

/-- Entry `(b, t, s, c)` of the difference array is channel `c` of token `t` minus channel `c` of token `s`, as reals. -/
theorem diff_at (b : Fin 8) (t s : Fin 2048) (c : Fin 2) :
    val_main_v8 (F := Ideal) x1 x2 (ix4 b t s c)
      = (((val_main_v2 (F := Ideal) x1 x2 (ix3 b t c)).toInt : ℝ) : EReal) - (((val_main_v2 (F := Ideal) x1 x2 (ix3 b s c)).toInt : ℝ) : EReal) := by
  have e6 : idx_main_v4 (idx_main_v6 (ix4 b t s c)) = ix3 b t c :=
    funext fun a => Fin.ext (by match a with | ⟨0, _⟩ => rfl | ⟨1, _⟩ => rfl | ⟨2, _⟩ => rfl)
  have e7 : idx_main_v5 (idx_main_v7 (ix4 b t s c)) = ix3 b s c :=
    funext fun a => Fin.ext (by match a with | ⟨0, _⟩ => rfl | ⟨1, _⟩ => rfl | ⟨2, _⟩ => rfl)
  rw [val_main_v8_apply, val_main_v6_apply, val_main_v7_apply, val_main_v4_apply, val_main_v5_apply, e6, e7,
    val_main_v3_apply, val_main_v3_apply]
  rfl

/-! ## One weight -/

/-- Entry `(b, t, s)` of the exponentiated array is the Gaussian weight of tokens `t` and `s` of batch `b`. -/
theorem weight_at (b : Fin 8) (t s : Fin 2048) :
    val_main_v14 (F := Ideal) x1 x2 (ix3 b t s) = ((wt x1 x2 b t s : ℝ) : EReal) := by
  have e10 : ∀ c : Fin 2, idx_main_v10 (ix3 b t s) c = ix4 b t s c := fun c =>
    funext fun a => Fin.ext (by match a with | ⟨0, _⟩ => rfl | ⟨1, _⟩ => rfl | ⟨2, _⟩ => rfl | ⟨3, _⟩ => rfl)
  rw [val_main_v14_apply, val_main_v13_apply, val_main_v11_apply, val_main_v10_apply, val_main_v12_apply, val_main_cst_0_apply,
    val_main_cst_apply, Fin.sum_univ_two, e10, e10, val_main_v9_apply, val_main_v9_apply, diff_at, diff_at,
    stack_ch0, stack_ch0, stack_ch1, stack_ch1]
  simp only [Ideal.hostUnary_exp_def, Ideal.hostDivf_def, Ideal.hostNegf_def, Ideal.negf_def, Ideal.mulf_def, Ideal.ofBits_def]
  exact exp_neg_div_word _ _ _ _

/-- Entry `(b, t, s)` of the normalised array: the weight over (zero plus) its row's sum. -/
theorem normalised_at (b : Fin 8) (t s : Fin 2048) :
    val_main_v18 (F := Ideal) x1 x2 (ix3 b t s)
      = Ideal.div ((wt x1 x2 b t s : ℝ) : EReal) (Ideal.ofBits .f32 0x00000000#32 + ∑ s' : Fin 2048, ((wt x1 x2 b t s' : ℝ) : EReal)) := by
  have e17 : idx_main_v16 (idx_main_v17 (ix3 b t s)) = ix2 b t :=
    funext fun a => Fin.ext (by match a with | ⟨0, _⟩ => rfl | ⟨1, _⟩ => rfl)
  have e15 : ∀ k : Fin 2048, idx_main_v15 (ix2 b t) k = ix3 b t k := fun k =>
    funext fun a => Fin.ext (by match a with | ⟨0, _⟩ => rfl | ⟨1, _⟩ => rfl | ⟨2, _⟩ => rfl)
  rw [val_main_v18_apply, val_main_v17_apply, val_main_v16_apply, e17, val_main_v15_apply, val_main_cst_1_apply, weight_at]
  simp only [e15, weight_at, Ideal.hostDivf_def, Ideal.ofBits_def]

/-! ## The result -/

/-- The reference's result is the mixture of the argument arrays, wherever `x` holds reals. -/
theorem result_eq_mix (x0 : (⟨S8x2048x1024, .f32⟩ : BufTy).Contents (Elt Ideal)) (hx : ∀ j, x0 j ≠ ⊤ ∧ x0 j ≠ ⊥) :
    val_main_v19 (F := Ideal) x0 x1 x2 = mix x0 x1 x2 := by
  funext i
  obtain ⟨b, t, d, rfl⟩ : ∃ (b : Fin 8) (t : Fin 2048) (d : Fin 1024), i = ix3 b t d := ⟨i 0, i 1, i 2, eq_ix3 i⟩
  have el : ∀ k : Fin 2048, lidx_main_v19 (ix3 b t d) k = ix3 b t k := fun k =>
    funext fun a => Fin.ext (by match a with | ⟨0, _⟩ => rfl | ⟨1, _⟩ => rfl | ⟨2, _⟩ => rfl)
  have er : ∀ k : Fin 2048, ridx_main_v19 (ix3 b t d) k = ix3 b k d := fun k =>
    funext fun a => Fin.ext (by match a with | ⟨0, _⟩ => rfl | ⟨1, _⟩ => rfl | ⟨2, _⟩ => rfl)
  rw [val_main_v19_apply, mix_ix3]
  simp only [el, er, normalised_at]
  exact normalise_then_sum (fun k : Fin 2048 => wt x1 x2 b t k) (wt_sum_pos x1 x2 b t) (fun k : Fin 2048 => x0 (ix3 b k d))
    (fun k => hx _)

end Cert.RefMix

end
-- ==== Proof.TileMix.lean ====
/-
  One tile of the kernel's result.

  At a grid point the body holds the positions of a tile of 256 query tokens (as two columns), the positions of all
  2048 tokens of the batch (as two rows), and the batch's rows `x`. It forms the 256 × 2048 tile of Gaussian weights,
  sums each of the tile's rows along its lanes, multiplies the tile into `x` on the matrix unit (into a zero
  accumulator), and divides each product row by its weight sum. Entry `(r, d)` of the stored tile is therefore
  `(Σ_k w r k · x k d) / (Σ_k w r k)`: the mixture, with the sum taken first and one division.

  The operations that are not pointwise are read at an index one at a time: a column broadcast along the lanes, a row
  broadcast down the sublanes, the cast that gives the lane sums their unit last axis back, the lane sum, and the
  matrix product as a sum over the contracted axis.
-/
import proofs.«181095_j56977036148956_2_alg».proof.Proof.Gen.KernelIdeal.Skeleton
import proofs.«181095_j56977036148956_2_alg».proof.Proof.Mixture
import Idealize.ShloMosaic.Lib.Pipeline.Value
import Idealize.ShloMosaic.Lib.ValueIdx
import Idealize.ShloMosaic.PureOps.Ideal.Laws

noncomputable section

namespace Cert.TileMix

open Cert.KernelIdeal Cert.KernelIdeal.Gen Idealize.ShloMosaic Idealize.ShloMosaic.ValueIdx Cert.Mixture

/-! ## Layout operations of the tile, read at an index -/

/-- A column `[1, 256, 1]` broadcast along 2048 lanes: entry `(r, k)` is the column's entry `r`. -/
theorem bcast_col_lanes {α : Type} (v : S1x256x1.Idx → α) (h : S1x256x1.Broadcasts S1x256x2048) (z : Fin 1) (r : Fin 256) (k : Fin 2048) :
    broadcastTo S1x256x2048 v h (ix3 z r k) = v (ix3 z r (0 : Fin 1)) :=
  broadcastTo_apply v h (ix3 z r k) (ix3 z r (0 : Fin 1)) (fun a => by
    match a with
    | ⟨0, _⟩ => show z.val = if (1 : Nat) = 1 then 0 else z.val; rw [if_pos rfl]; have := z.isLt; omega
    | ⟨1, _⟩ => show r.val = if (256 : Nat) = 1 then 0 else r.val; rw [if_neg (by decide)]
    | ⟨2, _⟩ => show (0 : Nat) = if (1 : Nat) = 1 then 0 else k.val; rw [if_pos rfl])

/-- A row `[1, 1, 2048]` broadcast down 256 sublanes: entry `(r, k)` is the row's entry `k`. -/
theorem bcast_row_sublanes {α : Type} (v : S1x1x2048.Idx → α) (h : S1x1x2048.Broadcasts S1x256x2048) (z : Fin 1) (r : Fin 256) (k : Fin 2048) :
    broadcastTo S1x256x2048 v h (ix3 z r k) = v (ix3 z (0 : Fin 1) k) :=
  broadcastTo_apply v h (ix3 z r k) (ix3 z (0 : Fin 1) k) (fun a => by
    match a with
    | ⟨0, _⟩ => show z.val = if (1 : Nat) = 1 then 0 else z.val; rw [if_pos rfl]; have := z.isLt; omega
    | ⟨1, _⟩ => show (0 : Nat) = if (1 : Nat) = 1 then 0 else r.val; rw [if_pos rfl]
    | ⟨2, _⟩ => show k.val = if (2048 : Nat) = 1 then 0 else k.val; rw [if_neg (by decide)])

/-- The same column broadcast along the 1024 lanes of the product tile. -/
theorem bcast_col_out {α : Type} (v : S1x256x1.Idx → α) (h : S1x256x1.Broadcasts S1x256x1024) (z : Fin 1) (r : Fin 256) (d : Fin 1024) :
    broadcastTo S1x256x1024 v h (ix3 z r d) = v (ix3 z r (0 : Fin 1)) :=
  broadcastTo_apply v h (ix3 z r d) (ix3 z r (0 : Fin 1)) (fun a => by
    match a with
    | ⟨0, _⟩ => show z.val = if (1 : Nat) = 1 then 0 else z.val; rw [if_pos rfl]; have := z.isLt; omega
    | ⟨1, _⟩ => show r.val = if (256 : Nat) = 1 then 0 else r.val; rw [if_neg (by decide)]
    | ⟨2, _⟩ => show (0 : Nat) = if (1 : Nat) = 1 then 0 else d.val; rw [if_pos rfl])

/-- The cast `[1, 256] → [1, 256, 1]` that restores the reduced axis as a unit axis keeps each entry in place. -/
theorem cast_keepdims {α : Type} (v : S1x256.Idx → α) (h : S1x256.ShapeCasts S1x256x1) (z : Fin 1) (r : Fin 256) :
    shapeCast S1x256x1 v h (ix3 z r (0 : Fin 1)) = v (ix2 z r) :=
  shapeCast_apply v h (ix3 z r (0 : Fin 1)) (ix2 z r) (by
    rw [Shape.rowMajor_val_two, Shape.rowMajor_val_three]
    show z.val * 256 + r.val = (z.val * 256 + r.val) * 1 + 0
    omega)

/-! ## The lane sum and the matrix product, as sums over the 2048 tokens -/

/-- The sum along the lanes of a `[1, 256, 2048]` tile, from the zero word: row `r` is the sum of its 2048 entries. -/
theorem lane_sum (src : FVec Ideal S1x256x2048 .f32) (h : S1x256x2048.Reduces [2] S1x256) (z : Fin 1) (r : Fin 256) :
    multiReduction .add [2] S1x256 src 0x00000000#32 h (.inl rfl) rfl (ix2 z r) = ∑ k : Fin 2048, src (ix3 z r k) := by
  refine (Ideal.multiReduction_add_single src 0x00000000#32 h (.inl rfl) rfl (ix2 z r)).trans ?_
  refine Finset.sum_congr rfl fun k _ => congrArg src ?_
  funext a
  apply Fin.ext
  match a with
  | ⟨0, _⟩ => rfl
  | ⟨1, _⟩ => rfl
  | ⟨2, _⟩ => rfl

theorem lhs_coord0 (j : S1x256x1024.Idx) (q : dot_S1x256x2048_S1x2048x1024_S1x256x1024_2_1_1_2_0_0.contr.Idx) :
    (dot_S1x256x2048_S1x2048x1024_S1x256x1024_2_1_1_2_0_0.lhsIdx j q 0).val = (j 0).val := by
  unfold DotDims.lhsIdx
  rw [dif_pos (show (0 : Fin S1x256x2048.rank) ∈ dot_S1x256x2048_S1x2048x1024_S1x256x1024_2_1_1_2_0_0.lhsBatch by decide)]
  rfl
theorem lhs_coord1 (j : S1x256x1024.Idx) (q : dot_S1x256x2048_S1x2048x1024_S1x256x1024_2_1_1_2_0_0.contr.Idx) :
    (dot_S1x256x2048_S1x2048x1024_S1x256x1024_2_1_1_2_0_0.lhsIdx j q 1).val = (j 1).val := by
  unfold DotDims.lhsIdx
  rw [dif_neg (show ¬(1 : Fin S1x256x2048.rank) ∈ dot_S1x256x2048_S1x2048x1024_S1x256x1024_2_1_1_2_0_0.lhsBatch by decide),
    dif_pos (show (1 : Fin S1x256x2048.rank) ∈ dot_S1x256x2048_S1x2048x1024_S1x256x1024_2_1_1_2_0_0.lhsNonContracting by decide)]
  rfl
theorem lhs_coord2 (j : S1x256x1024.Idx) (q : dot_S1x256x2048_S1x2048x1024_S1x256x1024_2_1_1_2_0_0.contr.Idx) :
    (dot_S1x256x2048_S1x2048x1024_S1x256x1024_2_1_1_2_0_0.lhsIdx j q 2).val = (q ⟨0, by decide⟩).val :=
  dot_S1x256x2048_S1x2048x1024_S1x256x1024_2_1_1_2_0_0.lhsIdx_val_of_single rfl j q
theorem rhs_coord0 (j : S1x256x1024.Idx) (q : dot_S1x256x2048_S1x2048x1024_S1x256x1024_2_1_1_2_0_0.contr.Idx) :
    (dot_S1x256x2048_S1x2048x1024_S1x256x1024_2_1_1_2_0_0.rhsIdx j q 0).val = (j 0).val := by
  unfold DotDims.rhsIdx
  rw [dif_pos (show (0 : Fin S1x2048x1024.rank) ∈ dot_S1x256x2048_S1x2048x1024_S1x256x1024_2_1_1_2_0_0.rhsBatch by decide)]
  rfl
theorem rhs_coord1 (j : S1x256x1024.Idx) (q : dot_S1x256x2048_S1x2048x1024_S1x256x1024_2_1_1_2_0_0.contr.Idx) :
    (dot_S1x256x2048_S1x2048x1024_S1x256x1024_2_1_1_2_0_0.rhsIdx j q 1).val = (q ⟨0, by decide⟩).val :=
  dot_S1x256x2048_S1x2048x1024_S1x256x1024_2_1_1_2_0_0.rhsIdx_val_of_single rfl j q
theorem rhs_coord2 (j : S1x256x1024.Idx) (q : dot_S1x256x2048_S1x2048x1024_S1x256x1024_2_1_1_2_0_0.contr.Idx) :
    (dot_S1x256x2048_S1x2048x1024_S1x256x1024_2_1_1_2_0_0.rhsIdx j q 2).val = (j 2).val := by
  unfold DotDims.rhsIdx
  rw [dif_neg (show ¬(2 : Fin S1x2048x1024.rank) ∈ dot_S1x256x2048_S1x2048x1024_S1x256x1024_2_1_1_2_0_0.rhsBatch by decide),
    dif_pos (show (2 : Fin S1x2048x1024.rank) ∈ dot_S1x256x2048_S1x2048x1024_S1x256x1024_2_1_1_2_0_0.rhsNonContracting by decide)]
  rfl

/-- The matrix product of a `[1, 256, 2048]` tile with `[1, 2048, 1024]` rows into the zero accumulator: entry
    `(r, d)` is the sum over the 2048 tokens `k` of the tile's `(r, k)` times the rows' `(k, d)`. -/
theorem matmul_at (lhs : FVec Ideal S1x256x2048 .f32) (rhs : FVec Ideal S1x2048x1024 .f32) (z : Fin 1) (r : Fin 256) (d : Fin 1024) :
    matmul dot_S1x256x2048_S1x2048x1024_S1x256x1024_2_1_1_2_0_0 none lhs rhs (constant S1x256x1024 .f32 0x00000000#32) (ix3 z r d)
      = ∑ k : Fin 2048, lhs (ix3 z r k) * rhs (ix3 z k d) := by
  refine (Ideal.matmul_constant_zero_apply dot_S1x256x2048_S1x2048x1024_S1x256x1024_2_1_1_2_0_0 none lhs rhs (ix3 z r d)).trans ?_
  rw [← Equiv.sum_comp (ValueIdx.contrEquiv1 dot_S1x256x2048_S1x2048x1024_S1x256x1024_2_1_1_2_0_0 2048 rfl rfl).symm]
  refine Finset.sum_congr rfl fun k _ => ?_
  have hk := ValueIdx.contrEquiv1_symm_val dot_S1x256x2048_S1x2048x1024_S1x256x1024_2_1_1_2_0_0 2048 rfl rfl k
  have el : dot_S1x256x2048_S1x2048x1024_S1x256x1024_2_1_1_2_0_0.lhsIdx (ix3 z r d)
      ((ValueIdx.contrEquiv1 dot_S1x256x2048_S1x2048x1024_S1x256x1024_2_1_1_2_0_0 2048 rfl rfl).symm k) = ix3 z r k :=
    funext fun a => Fin.ext (by
      match a with
      | ⟨0, _⟩ => exact lhs_coord0 _ _
      | ⟨1, _⟩ => exact lhs_coord1 _ _
      | ⟨2, _⟩ => exact (lhs_coord2 _ _).trans hk)
  have er : dot_S1x256x2048_S1x2048x1024_S1x256x1024_2_1_1_2_0_0.rhsIdx (ix3 z r d)
      ((ValueIdx.contrEquiv1 dot_S1x256x2048_S1x2048x1024_S1x256x1024_2_1_1_2_0_0 2048 rfl rfl).symm k) = ix3 z k d :=
    funext fun a => Fin.ext (by
      match a with
      | ⟨0, _⟩ => exact rhs_coord0 _ _
      | ⟨1, _⟩ => exact (rhs_coord1 _ _).trans hk
      | ⟨2, _⟩ => exact rhs_coord2 _ _)
  rw [el, er]

/-! ## The weight tile -/

/-- The 256 × 2048 tile of weights the body forms from the query columns `qv`, `qh` and the key rows `kv`, `kh`. -/
def weights (qv qh : Vec Ideal S1x256x1 .i32) (kv kh : Vec Ideal S1x1x2048 .i32) : FVec Ideal S1x256x2048 .f32 :=
  have fqv : FVec Ideal S1x256x1 .f32 := sitofp .f32 (shapeCast S1x256x1 qv shapeCasts_S1x256x1_S1x256x1)
  have fqh : FVec Ideal S1x256x1 .f32 := sitofp .f32 (shapeCast S1x256x1 qh shapeCasts_S1x256x1_S1x256x1)
  have fkv : FVec Ideal S1x1x2048 .f32 := sitofp .f32 (shapeCast S1x1x2048 kv shapeCasts_S1x1x2048_S1x1x2048)
  have fkh : FVec Ideal S1x1x2048 .f32 := sitofp .f32 (shapeCast S1x1x2048 kh shapeCasts_S1x1x2048_S1x1x2048)
  have dv : FVec Ideal S1x256x2048 .f32 := subf (broadcastTo S1x256x2048 fqv broadcasts_S1x256x1_S1x256x2048) (broadcastTo S1x256x2048 fkv broadcasts_S1x1x2048_S1x256x2048)
  have dh : FVec Ideal S1x256x2048 .f32 := subf (broadcastTo S1x256x2048 fqh broadcasts_S1x256x1_S1x256x2048) (broadcastTo S1x256x2048 fkh broadcasts_S1x1x2048_S1x256x2048)
  exp (mulf (addf (mulf dv dv) (mulf dh dh)) (broadcast S1x256x2048 (Scalar.ofBits .f32 0xBB000000#32)))

/-- The body's stored value is the weight tile multiplied into the rows, each product row divided by the tile row's
    lane sum (the body's own text, with the weight tile named). -/
theorem payload_eq (qv qh : Vec Ideal S1x256x1 .i32) (kv kh : Vec Ideal S1x1x2048 .i32) (x : FVec Ideal S1x2048x1024 .f32) :
    k0_pay1 (F := Ideal) qv qh kv kh x
      = divf (matmul dot_S1x256x2048_S1x2048x1024_S1x256x1024_2_1_1_2_0_0 none (weights qv qh kv kh) x (constant S1x256x1024 .f32 0x00000000#32))
          (broadcastTo S1x256x1024 (shapeCast S1x256x1 (multiReduction .add [2] S1x256 (weights qv qh kv kh) 0x00000000#32
            reduces_S1x256x2048_S1x256 (.inl rfl) rfl) shapeCasts_S1x256_S1x256x1) broadcasts_S1x256x1_S1x256x1024) := rfl

/-- Entry `(r, k)` of the weight tile is the Gaussian weight of query `r` and key `k`. -/
theorem weights_at (qv qh : Vec Ideal S1x256x1 .i32) (kv kh : Vec Ideal S1x1x2048 .i32) (z : Fin 1) (r : Fin 256) (k : Fin 2048) :
    weights qv qh kv kh (ix3 z r k)
      = ((gauss (qv (ix3 z r (0 : Fin 1))).toInt (qh (ix3 z r (0 : Fin 1))).toInt (kv (ix3 z (0 : Fin 1) k)).toInt (kh (ix3 z (0 : Fin 1) k)).toInt : ℝ) : EReal) := by
  unfold weights
  simp only [shapeCast_self]
  show Ideal.exp ((((broadcastTo S1x256x2048 (sitofp (F := Ideal) .f32 qv) broadcasts_S1x256x1_S1x256x2048 (ix3 z r k)) - (broadcastTo S1x256x2048 (sitofp (F := Ideal) .f32 kv) broadcasts_S1x1x2048_S1x256x2048 (ix3 z r k)))
      * ((broadcastTo S1x256x2048 (sitofp (F := Ideal) .f32 qv) broadcasts_S1x256x1_S1x256x2048 (ix3 z r k)) - (broadcastTo S1x256x2048 (sitofp (F := Ideal) .f32 kv) broadcasts_S1x1x2048_S1x256x2048 (ix3 z r k)))
    + ((broadcastTo S1x256x2048 (sitofp (F := Ideal) .f32 qh) broadcasts_S1x256x1_S1x256x2048 (ix3 z r k)) - (broadcastTo S1x256x2048 (sitofp (F := Ideal) .f32 kh) broadcasts_S1x1x2048_S1x256x2048 (ix3 z r k)))
      * ((broadcastTo S1x256x2048 (sitofp (F := Ideal) .f32 qh) broadcasts_S1x256x1_S1x256x2048 (ix3 z r k)) - (broadcastTo S1x256x2048 (sitofp (F := Ideal) .f32 kh) broadcasts_S1x1x2048_S1x256x2048 (ix3 z r k))))
    * Ideal.ofBits .f32 0xBB000000#32) = _
  rw [bcast_col_lanes, bcast_col_lanes, bcast_row_sublanes, bcast_row_sublanes]
  exact exp_mul_word _ _ _ _

/-- Entry `(r, d)` of the stored tile: the weighted sum of column `d` of the rows over the 2048 keys, divided by the
    sum of the weights. -/
theorem payload_at (qv qh : Vec Ideal S1x256x1 .i32) (kv kh : Vec Ideal S1x1x2048 .i32) (x : FVec Ideal S1x2048x1024 .f32)
    (z : Fin 1) (r : Fin 256) (d : Fin 1024) :
    k0_pay1 (F := Ideal) qv qh kv kh x (ix3 z r d)
      = Ideal.div
          (∑ k : Fin 2048, ((gauss (qv (ix3 z r (0 : Fin 1))).toInt (qh (ix3 z r (0 : Fin 1))).toInt (kv (ix3 z (0 : Fin 1) k)).toInt (kh (ix3 z (0 : Fin 1) k)).toInt : ℝ) : EReal) * x (ix3 z k d))
          (∑ k : Fin 2048, ((gauss (qv (ix3 z r (0 : Fin 1))).toInt (qh (ix3 z r (0 : Fin 1))).toInt (kv (ix3 z (0 : Fin 1) k)).toInt (kh (ix3 z (0 : Fin 1) k)).toInt : ℝ) : EReal)) := by
  rw [payload_eq, divf_apply, matmul_at, bcast_col_out, cast_keepdims, lane_sum]
  simp only [weights_at]

end Cert.TileMix

end
-- ==== Proof.ArrayMix.lean ====
/-
  From tiles to the whole result array.

  The grid has 8 × 8 points: point `(b, q)` works on batch `b` and query tile `q`. Its output block is rows
  `256 q … 256 q + 255` of batch `b` of the result; its query columns are the same rows of the two position arrays
  (laid out with a unit last axis by the host), its key rows are all 2048 positions of batch `b` (laid out with a unit
  middle axis), and its `x` block is all of batch `b`. So what the point writes back is exactly its block of the
  mixture of the argument arrays, and the 64 blocks tile the result array: the array ends holding the mixture.
-/
import proofs.«181095_j56977036148956_2_alg».proof.Proof.Gen.KernelIdeal.Value
import proofs.«181095_j56977036148956_2_alg».proof.Proof.TileMix
import Idealize.ShloMosaic.Lib.StableHlo.Run

set_option maxRecDepth 16384

noncomputable section

namespace Cert.ArrayMix

open Cert.KernelIdeal Cert.KernelIdeal.Gen Cert.KernelIdeal.Value Idealize.ShloMosaic Idealize.ShloMosaic.TcCoe Idealize.SL.Sem
open Idealize.ShloMosaic.ValueIdx Cert.Mixture
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The position arrays as the host lays them out for the region -/

/-- The query-side layout of the first position array: entry `(b, t, 0)` is position `(b, t)`. -/
theorem V_qv (c : Dev nD) (y : S8x2048x1.Idx) (b : Fin 8) (t : Fin 2048) (h0 : (y 0).val = b.val) (h1 : (y 1).val = t.val) :
    (V m c main_v0 : S8x2048x1.Idx → BitVec 32) y = (m ((c : Thread nD τ).loc main_arg1) : S8x2048.Idx → BitVec 32) (ix2 b t) := by
  have e : (V m c main_v0 : S8x2048x1.Idx → BitVec 32)
      = broadcastInDim S8x2048x1 ![0, 1] bcast_S8x2048_S8x2048x1_0_1 (m ((c : Thread nD τ).loc main_arg1) : S8x2048.Idx → BitVec 32) := by
    dsimp only [Gen.V, Gen.hostOps0]; after_results
  rw [e]
  exact broadcastInDim_apply _ bcast_S8x2048_S8x2048x1_0_1 _ y (ix2 b t) (fun a => by
    match a with
    | ⟨0, _⟩ => show b.val = if (8 : Nat) = 1 then 0 else (y 0).val; rw [if_neg (by decide), h0]
    | ⟨1, _⟩ => show t.val = if (2048 : Nat) = 1 then 0 else (y 1).val; rw [if_neg (by decide), h1])

/-- The query-side layout of the second position array. -/
theorem V_qh (c : Dev nD) (y : S8x2048x1.Idx) (b : Fin 8) (t : Fin 2048) (h0 : (y 0).val = b.val) (h1 : (y 1).val = t.val) :
    (V m c main_v1 : S8x2048x1.Idx → BitVec 32) y = (m ((c : Thread nD τ).loc main_arg2) : S8x2048.Idx → BitVec 32) (ix2 b t) := by
  have e : (V m c main_v1 : S8x2048x1.Idx → BitVec 32)
      = broadcastInDim S8x2048x1 ![0, 1] bcast_S8x2048_S8x2048x1_0_1 (m ((c : Thread nD τ).loc main_arg2) : S8x2048.Idx → BitVec 32) := by
    dsimp only [Gen.V, Gen.hostOps0]; after_results
  rw [e]
  exact broadcastInDim_apply _ bcast_S8x2048_S8x2048x1_0_1 _ y (ix2 b t) (fun a => by
    match a with
    | ⟨0, _⟩ => show b.val = if (8 : Nat) = 1 then 0 else (y 0).val; rw [if_neg (by decide), h0]
    | ⟨1, _⟩ => show t.val = if (2048 : Nat) = 1 then 0 else (y 1).val; rw [if_neg (by decide), h1])

/-- The key-side layout of the first position array: entry `(b, 0, s)` is position `(b, s)`. -/
theorem V_kv (c : Dev nD) (y : S8x1x2048.Idx) (b : Fin 8) (s : Fin 2048) (h0 : (y 0).val = b.val) (h2 : (y 2).val = s.val) :
    (V m c main_v2 : S8x1x2048.Idx → BitVec 32) y = (m ((c : Thread nD τ).loc main_arg1) : S8x2048.Idx → BitVec 32) (ix2 b s) := by
  have e : (V m c main_v2 : S8x1x2048.Idx → BitVec 32)
      = broadcastInDim S8x1x2048 ![0, 2] bcast_S8x2048_S8x1x2048_0_2 (m ((c : Thread nD τ).loc main_arg1) : S8x2048.Idx → BitVec 32) := by
    dsimp only [Gen.V, Gen.hostOps0]; after_results
  rw [e]
  exact broadcastInDim_apply _ bcast_S8x2048_S8x1x2048_0_2 _ y (ix2 b s) (fun a => by
    match a with
    | ⟨0, _⟩ => show b.val = if (8 : Nat) = 1 then 0 else (y 0).val; rw [if_neg (by decide), h0]
    | ⟨1, _⟩ => show s.val = if (2048 : Nat) = 1 then 0 else (y 2).val; rw [if_neg (by decide), h2])

/-- The key-side layout of the second position array. -/
theorem V_kh (c : Dev nD) (y : S8x1x2048.Idx) (b : Fin 8) (s : Fin 2048) (h0 : (y 0).val = b.val) (h2 : (y 2).val = s.val) :
    (V m c main_v3 : S8x1x2048.Idx → BitVec 32) y = (m ((c : Thread nD τ).loc main_arg2) : S8x2048.Idx → BitVec 32) (ix2 b s) := by
  have e : (V m c main_v3 : S8x1x2048.Idx → BitVec 32)
      = broadcastInDim S8x1x2048 ![0, 2] bcast_S8x2048_S8x1x2048_0_2 (m ((c : Thread nD τ).loc main_arg2) : S8x2048.Idx → BitVec 32) := by
    dsimp only [Gen.V, Gen.hostOps0]; after_results
  rw [e]
  exact broadcastInDim_apply _ bcast_S8x2048_S8x1x2048_0_2 _ y (ix2 b s) (fun a => by
    match a with
    | ⟨0, _⟩ => show b.val = if (8 : Nat) = 1 then 0 else (y 0).val; rw [if_neg (by decide), h0]
    | ⟨1, _⟩ => show s.val = if (2048 : Nat) = 1 then 0 else (y 2).val; rw [if_neg (by decide), h2])

/-- The rows `x` reach the region as launched. -/
theorem V_x (c : Dev nD) (y : S8x2048x1024.Idx) (b : Fin 8) (s : Fin 2048) (d : Fin 1024)
    (h0 : (y 0).val = b.val) (h1 : (y 1).val = s.val) (h2 : (y 2).val = d.val) :
    (V m c main_arg0 : S8x2048x1024.Idx → EReal) y = (m ((c : Thread nD τ).loc main_arg0) : S8x2048x1024.Idx → EReal) (ix3 b s d) := by
  rw [V_main_arg0]
  exact congrArg _ (funext fun a => Fin.ext (by
    match a with
    | ⟨0, _⟩ => exact h0
    | ⟨1, _⟩ => exact h1
    | ⟨2, _⟩ => exact h2))

/-! ## Where each window's block sits, relative to the output's -/

/-- The printed index maps, decided over the 64 grid points: the query columns move with the output block on the batch
    and row axes, the key rows and `x` follow it on the batch axis only, every other block index is zero; and the
    output's block indices stay within 8 × 8. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 7 ∧ win0_5.index t (1 : Fin 3) ≤ 7 ∧ win0_5.index t (2 : Fin 3) = 0 :=
  (by decide +kernel : ∀ t : Fin grid0.N, _)

/-- Every block of the 8 × 8 tiling is some point's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## What a point writes back -/

/-- Entry `(r, d)` of the tile stored at point `t` is the mixture at the array index that entry is written to: the
    point's query columns, key rows and `x` block are the rows of the argument arrays that index depends on. -/
theorem tile_at (c : Dev nD) (t : Fin cfg0.N) (z : Fin 1) (r : Fin 256) (d : Fin 1024) :
    k0_pay1 (F := Ideal) (iblk m c 0 t) (iblk m c 1 t) (iblk m c 2 t) (iblk m c 3 t) (iblk m c 4 t) (ix3 z r d)
      = mix (m ((c : Thread nD τ).loc main_arg0)) (m ((c : Thread nD τ).loc main_arg1)) (m ((c : Thread nD τ).loc main_arg2))
          (((cfg0.win 5).blk t).view.emb (ix3 z r d)) := by
  obtain ⟨a00, a01, a02, a10, a11, a12, a20, a21, a22, a30, a31, a32, a40, a41, a42, b0, b1, b2⟩ := idx_facts t
  have hq0 : (iblk m c 0 t : S1x256x1.Idx → BitVec 32) (ix3 z r (0 : Fin 1))
      = (m ((c : Thread nD τ).loc main_arg1) : S8x2048.Idx → BitVec 32) (ix2 ((((cfg0.win 5).blk t).view.emb (ix3 z r d)) 0) ((((cfg0.win 5).blk t).view.emb (ix3 z r d)) 1)) := by
    show (V m c main_v0 : S8x2048x1.Idx → BitVec 32) (((cfg0.win 0).blk t).view.emb (ix3 z r (0 : Fin 1))) = _
    refine V_qv m c _ _ _ ?_ ?_
    · show win0_0.index t (0 : Fin 3) * 1 + 1 * z.val = win0_5.index t (0 : Fin 3) * 1 + 1 * z.val; omega
    · show win0_0.index t (1 : Fin 3) * 256 + 1 * r.val = win0_5.index t (1 : Fin 3) * 256 + 1 * r.val; omega
  have hq1 : (iblk m c 1 t : S1x256x1.Idx → BitVec 32) (ix3 z r (0 : Fin 1))
      = (m ((c : Thread nD τ).loc main_arg2) : S8x2048.Idx → BitVec 32) (ix2 ((((cfg0.win 5).blk t).view.emb (ix3 z r d)) 0) ((((cfg0.win 5).blk t).view.emb (ix3 z r d)) 1)) := by
    show (V m c main_v1 : S8x2048x1.Idx → BitVec 32) (((cfg0.win 1).blk t).view.emb (ix3 z r (0 : Fin 1))) = _
    refine V_qh m c _ _ _ ?_ ?_
    · show win0_1.index t (0 : Fin 3) * 1 + 1 * z.val = win0_5.index t (0 : Fin 3) * 1 + 1 * z.val; omega
    · show win0_1.index t (1 : Fin 3) * 256 + 1 * r.val = win0_5.index t (1 : Fin 3) * 256 + 1 * r.val; omega
  have hk0 : ∀ k : Fin 2048, (iblk m c 2 t : S1x1x2048.Idx → BitVec 32) (ix3 z (0 : Fin 1) k)
      = (m ((c : Thread nD τ).loc main_arg1) : S8x2048.Idx → BitVec 32) (ix2 ((((cfg0.win 5).blk t).view.emb (ix3 z r d)) 0) k) := fun k => by
    show (V m c main_v2 : S8x1x2048.Idx → BitVec 32) (((cfg0.win 2).blk t).view.emb (ix3 z (0 : Fin 1) k)) = _
    refine V_kv m c _ _ _ ?_ ?_
    · show win0_2.index t (0 : Fin 3) * 1 + 1 * z.val = win0_5.index t (0 : Fin 3) * 1 + 1 * z.val; omega
    · show win0_2.index t (2 : Fin 3) * 2048 + 1 * k.val = k.val; omega
  have hk1 : ∀ k : Fin 2048, (iblk m c 3 t : S1x1x2048.Idx → BitVec 32) (ix3 z (0 : Fin 1) k)
      = (m ((c : Thread nD τ).loc main_arg2) : S8x2048.Idx → BitVec 32) (ix2 ((((cfg0.win 5).blk t).view.emb (ix3 z r d)) 0) k) := fun k => by
    show (V m c main_v3 : S8x1x2048.Idx → BitVec 32) (((cfg0.win 3).blk t).view.emb (ix3 z (0 : Fin 1) k)) = _
    refine V_kh m c _ _ _ ?_ ?_
    · show win0_3.index t (0 : Fin 3) * 1 + 1 * z.val = win0_5.index t (0 : Fin 3) * 1 + 1 * z.val; omega
    · show win0_3.index t (2 : Fin 3) * 2048 + 1 * k.val = k.val; omega
  have hx : ∀ k : Fin 2048, (iblk m c 4 t : S1x2048x1024.Idx → EReal) (ix3 z k d)
      = (m ((c : Thread nD τ).loc main_arg0) : S8x2048x1024.Idx → EReal) (ix3 ((((cfg0.win 5).blk t).view.emb (ix3 z r d)) 0) k ((((cfg0.win 5).blk t).view.emb (ix3 z r d)) 2)) := fun k => by
    show (V m c main_arg0 : S8x2048x1024.Idx → EReal) (((cfg0.win 4).blk t).view.emb (ix3 z k d)) = _
    refine V_x m c _ _ _ _ ?_ ?_ ?_
    · show win0_4.index t (0 : Fin 3) * 1 + 1 * z.val = win0_5.index t (0 : Fin 3) * 1 + 1 * z.val; omega
    · show win0_4.index t (1 : Fin 3) * 2048 + 1 * k.val = k.val; omega
    · show win0_4.index t (2 : Fin 3) * 1024 + 1 * d.val = win0_5.index t (2 : Fin 3) * 1024 + 1 * d.val; omega
  refine (Cert.TileMix.payload_at (iblk m c 0 t) (iblk m c 1 t) (iblk m c 2 t) (iblk m c 3 t) (iblk m c 4 t) z r d).trans ?_
  rw [hq0, hq1]
  simp only [hk0, hk1, hx]
  rfl

/-- Point `t` writes back its block of the mixture of the argument arrays. -/
theorem flushed_eq (c : Dev nD) (t : Fin cfg0.N) :
    (dats m 0 c).flushed 5 t = ((cfg0.win 5).blk t).view.read (Elt Ideal)
      (mix (m ((c : Thread nD τ).loc main_arg0)) (m ((c : Thread nD τ).loc main_arg1)) (m ((c : Thread nD τ).loc main_arg2))) := by
  rw [flushed5]
  unfold out0_5
  rw [View.canon_unit_zero hz]
  simp only [View.ld_unit_zero (S := S1x256x1) hz, View.ld_unit_zero (S := S1x1x2048) hz, View.ld_unit_zero (S := S1x2048x1024) hz]
  have hX := tile_at m c t
  generalize k0_pay1 (F := Ideal) (iblk m c 0 t) (iblk m c 1 t) (iblk m c 2 t) (iblk m c 3 t) (iblk m c 4 t) = X at hX ⊢
  generalize mix (m ((c : Thread nD τ).loc main_arg0)) (m ((c : Thread nD τ).loc main_arg1)) (m ((c : Thread nD τ).loc main_arg2)) = G at hX ⊢
  refine funext fun (j : S1x256x1024.Idx) => ?_
  obtain ⟨z, r, d, rfl⟩ : ∃ (z : Fin 1) (r : Fin 256) (d : Fin 1024), j = ix3 z r d := ⟨j 0, j 1, j 2, eq_ix3 j⟩
  have hxinj : (cfg0.win 5).xinj (grid0.coords t) (ix3 z r d) = (ix3 z r d : S1x256x1024.Idx) :=
    funext fun a => Fin.ext (by match a with | ⟨0, _⟩ => rfl | ⟨1, _⟩ => rfl | ⟨2, _⟩ => rfl)
  show X ((cfg0.win 5).xinj (grid0.coords t) (ix3 z r d)) = G (((cfg0.win 5).blk t).view.emb (ix3 z r d))
  rw [hxinj]
  exact hX z r d

/-! ## The blocks tile the array -/

/-- An index of the result array is in point `t`'s block iff each coordinate is in the block's range on its axis. -/
theorem mem_blk (t : Fin cfg0.N) (i : S8x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v4).slice (win0_5.rect t)).set ↔ _
  rw [View.set_slice_whole, Rect.mem_set_unit]
  exact Iff.rfl

/-- Every index of the result array lies in some point's block: batch `i 0`, query tile `i 1 / 256`. -/
theorem cover (i : S8x2048x1024.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-! ## The result array, and the run -/

/-- After the run the result array holds the mixture of the argument arrays. -/
theorem final (c : Dev nD) : (dats m 0 c).arrAt 5 cfg0.N
    = mix (m ((c : Thread nD τ).loc main_arg0)) (m ((c : Thread nD τ).loc main_arg1)) (m ((c : Thread nD τ).loc main_arg2)) :=
  (dats m 0 c).arrAt_eq_of_cover 5 _ (fun t _ => flushed_eq m c t) cover

/-- Every weakly fair execution of the kernel's program terminates with the result array at the mixture of the
    argument arrays, and the arguments unchanged. -/
theorem run : θ_run defs (onTc (τ := τ) (main (F := Ideal))) ⟨m, fun _ => 0, ρ⟩ fun r => ∀ c : Dev nD,
      r.2.mem ((c : Thread nD τ).loc main_v4)
        = mix (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ArrayMix

end
-- ==== Proof.FiniteRows.lean ====
/-
  The precondition makes every entry of `x` a real.

  The precondition is one bit: the conjunction, over every index of `x`, of `|x| < +∞`. If the bit is set, each
  conjunct holds; and an extended real whose absolute value `max x (-x)` lies strictly below `⊤` is neither `⊤`
  nor `⊥` (both have absolute value `⊤`).
-/
import proofs.«181095_j56977036148956_2_alg».proof.Proof.Gen.Pre_finite_inputs
import Idealize.ShloMosaic.Lib.ReduceAll
import Idealize.ShloMosaic.Lib.ValueIdx
import Idealize.ShloMosaic.PureOps.Ideal.Laws

noncomputable section

namespace Cert.FiniteRows

open Idealize.ShloMosaic Cert.Pre_finite_inputs Cert.Pre_finite_inputs.Gen

/-- The word `0x7F800000` is `+∞`. -/
theorem ofBits_inf : Ideal.ofBits .f32 0x7F800000#32 = ⊤ := by
  simp [Ideal.ofBits, Ideal.ieee]

/-- An extended real whose absolute value is strictly below `⊤` is a real. -/
theorem real_of_abs_lt_top (x : EReal) (h : Ideal.cmp .olt (max x (-x)) ⊤ = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- Under the precondition every entry of `x` is a real. -/
theorem real_of_pre (a0 : FVec Ideal S8x2048x1024 .f32) (a1 a2 : IVec S8x2048 32)
    (h : Cert.Pre_finite_inputs.fn (F := Ideal) a0 a1 a2 = fun _ => 1#1) (j : S8x2048x1024.Idx) :
    a0 j ≠ ⊤ ∧ a0 j ≠ ⊥ := by
  have h0 := congrFun h ValueIdx.ix0
  dsimp only [fn] at h0
  haveI : Subsingleton S_.Idx := ⟨fun a b => funext fun d => d.elim0⟩
  have hj := Host.reduce_andi_all _ _ _ _ ValueIdx.ix0 h0 j
  have hj' : Ideal.cmp .olt (max (a0 j) (-(a0 j))) (Ideal.ofBits .f32 0x7F800000#32) = 1#1 := hj
  rw [ofBits_inf] at hj'
  exact real_of_abs_lt_top _ hj'

end Cert.FiniteRows

end
-- ==== Proof.lean ====
/-
  The claim: a Gaussian positional mixture, computed two ways, is one function on the extended reals.

  For each batch, token `t` receives the average of all rows `x s` weighted by `exp (-(d² / 512))`, `d²` the squared
  distance of the two tokens' integer positions, normalised by the weights' sum. The reference normalises every weight
  by its row's sum and then contracts against `x`; the kernel contracts the unnormalised weights against `x` tile by
  tile and divides each product row once by the row's weight sum. The weights are positive reals, so their sum is a
  nonzero real; with every entry of `x` a real (the precondition) the reciprocal of that sum moves across the finite
  sum, and the two results agree entry by entry.

  Proof/Mixture.lean states the weights, the mixture and that law; Proof/RefMix.lean reads the reference's operations
  index by index to the mixture; Proof/TileMix.lean reads one stored tile of the kernel; Proof/ArrayMix.lean places the
  64 tiles in the result array; Proof/FiniteRows.lean reads the precondition as "every entry of `x` is a real".
  The three programs terminate without fault and leave their arguments as they were; the idealised kernel is the
  kernel's own text read on the extended reals, so nothing is owed for the passage between them.
-/
import proofs.«181095_j56977036148956_2_alg».proof.Defs
import proofs.«181095_j56977036148956_2_alg».proof.Proof.Gen.Kernel
import proofs.«181095_j56977036148956_2_alg».proof.Proof.Gen.Kernel.Skeleton
import proofs.«181095_j56977036148956_2_alg».proof.Proof.Gen.Kernel.Launch
import proofs.«181095_j56977036148956_2_alg».proof.Proof.Gen.Kernel.Points
import proofs.«181095_j56977036148956_2_alg».proof.Proof.Gen.Kernel.Frame
import proofs.«181095_j56977036148956_2_alg».proof.Proof.Gen.KernelIdeal
import proofs.«181095_j56977036148956_2_alg».proof.Proof.Gen.KernelIdeal.Skeleton
import proofs.«181095_j56977036148956_2_alg».proof.Proof.Gen.KernelIdeal.Launch
import proofs.«181095_j56977036148956_2_alg».proof.Proof.Gen.KernelIdeal.Points
import proofs.«181095_j56977036148956_2_alg».proof.Proof.Gen.KernelIdeal.Frame
import proofs.«181095_j56977036148956_2_alg».proof.Proof.Gen.ReferenceIdeal
import proofs.«181095_j56977036148956_2_alg».proof.Proof.Gen.Pre_finite_inputs
import proofs.«181095_j56977036148956_2_alg».proof.Proof.Gen.KernelIdeal.Value
import proofs.«181095_j56977036148956_2_alg».proof.Proof.Gen.ReferenceIdeal.Run
import proofs.«181095_j56977036148956_2_alg».proof.Proof.Gen.ReferenceIdeal.Read
import proofs.«181095_j56977036148956_2_alg».proof.Proof.Mixture
import proofs.«181095_j56977036148956_2_alg».proof.Proof.RefMix
import proofs.«181095_j56977036148956_2_alg».proof.Proof.TileMix
import proofs.«181095_j56977036148956_2_alg».proof.Proof.ArrayMix
import proofs.«181095_j56977036148956_2_alg».proof.Proof.FiniteRows
import Idealize.ShloMosaic.Adequacy
import Idealize.ShloMosaic.Init

noncomputable section

namespace Cert.Proof

open Idealize.ShloMosaic Idealize.SL.Sem

/-- The kernel's program terminates without fault and leaves its arguments as they were. -/
theorem frame_kernel : Cert.frame_Kernel := fun m ρ _ => Cert.Kernel.Gen.frame m ρ

/-- So does the same text read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, with every entry of `x` a real, both programs end with the mixture
    of the argument arrays in their result arrays. -/
theorem algebraic : Cert.algebraic_KernelIdeal_ReferenceIdeal := by
  intro m ρ m' ρ' hpre hagree
  refine ⟨fun c => Cert.Mixture.mix (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.ArrayMix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact Cert.RefMix.result_eq_mix _ _ _ (fun j => Cert.FiniteRows.real_of_pre _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
